-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x500000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S100000x1 : Shape := ⟨2, ![100000, 1]⟩
abbrev S500000x128 : Shape := ⟨2, ![500000, 128]⟩
abbrev S1x128 : Shape := ⟨2, ![1, 128]⟩
abbrev S5000x128 : Shape := ⟨2, ![5000, 128]⟩

abbrev nBuf : Space → Nat
  | .hbm => 58
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .f32⟩
  | .hbm, ⟨13, _⟩ => ⟨S500000x1, .f32⟩
  | .hbm, ⟨14, _⟩ => ⟨S_, .f32⟩
  | .hbm, ⟨15, _⟩ => ⟨S100000x1, .f32⟩
  | .hbm, ⟨16, _⟩ => ⟨S500000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S_, .f32⟩
  | .hbm, ⟨34, _⟩ => ⟨S100000x128, .f32⟩
  | .hbm, ⟨35, _⟩ => ⟨S500000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x128, .f32⟩
  | .hbm, ⟨50, _⟩ => ⟨S_, .f32⟩
  | .hbm, ⟨51, _⟩ => ⟨S100000x128, .f32⟩
  | .hbm, ⟨52, _⟩ => ⟨S500000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000x1 : S_.BroadcastsInDim S500000x1 (![] : Fin 0 → Fin S500000x1.rank)
  bcast_S_S100000x1 : S_.BroadcastsInDim S100000x1 (![] : Fin 0 → Fin S100000x1.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000x1_S500000x1_S500000x1_1_0_0_1_wf : ScatterDims.WF S100000x1 S500000x1 S500000x1 [1] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000x1 : Shape := ⟨2, ![100000, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x128, .f32⟩
  | .hbm, ⟨21, _⟩ => ⟨S_, .f32⟩
  | .hbm, ⟨22, _⟩ => ⟨S100000x128, .f32⟩
  | .hbm, ⟨23, _⟩ => ⟨S500000x1, .i32⟩
  | .hbm, ⟨24, _⟩ => ⟨S100000x128, .f32⟩
  | .hbm, ⟨25, _⟩ => ⟨S_, .f32⟩
  | .hbm, ⟨26, _⟩ => ⟨S500000x1, .f32⟩
  | .hbm, ⟨27, _⟩ => ⟨S_, .f32⟩
  | .hbm, ⟨28, _⟩ => ⟨S100000x1, .f32⟩
  | .hbm, ⟨29, _⟩ => ⟨S500000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S500000, .i32⟩
  | .hbm, ⟨47, _⟩ => ⟨S500000, .i1⟩
  | .hbm, ⟨48, _⟩ => ⟨S_, .i32⟩
  | .hbm, ⟨49, _⟩ => ⟨S500000, .i32⟩
  | .hbm, ⟨50, _⟩ => ⟨S500000, .i32⟩
  | .hbm, ⟨51, _⟩ => ⟨S500000, .i32⟩
  | .hbm, ⟨52, _⟩ => ⟨S500000x1, .i32⟩
  | .hbm, ⟨53, _⟩ => ⟨S500000x128, .f32⟩
  | .hbm, ⟨54, _⟩ => ⟨S_, .f32⟩
  | .hbm, ⟨55, _⟩ => ⟨S100000x128, .f32⟩
  | .hbm, ⟨56, _⟩ => ⟨S500000x1, .i32⟩
  | .hbm, ⟨57, _⟩ => ⟨S100000x128, .f32⟩
  | .hbm, ⟨58, _⟩ => ⟨S_, .f32⟩
  | .hbm, ⟨59, _⟩ => ⟨S500000x1, .f32⟩
  | .hbm, ⟨60, _⟩ => ⟨S_, .f32⟩
  | .hbm, ⟨61, _⟩ => ⟨S100000x1, .f32⟩
  | .hbm, ⟨62, _⟩ => ⟨S500000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S500000x1 : S_.BroadcastsInDim S500000x1 (![] : Fin 0 → Fin S500000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000x1_S500000x1_S500000x1_1_0_0_1_wf : ScatterDims.WF S100000x1 S500000x1 S500000x1 [1] [0] [0] 1
  dot_S100000x128_S128x128_S100000x128_1_0_0_1_n_n_wf : DotDims.WF S100000x128 S128x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its result named.

  The program is four stretches: host operations, the first layer's kernel over its twenty row blocks, host operations
  again (the second layer's neighbour means), the second layer's kernel. The contents of every buffer at each boundary
  are a fold through the program from the launch memory; the last boundary's contents are `Gen.W4`. Every weakly fair
  execution terminates without a fault, and in its final state the result buffer holds `Gen.W4` at the result's
  reference while the eight argument arrays are as launched.
-/
import proofs.«123018_j14053132992904_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_all m ρ)

end Cert.KernelIdeal.RunValue

end
-- ==== Proof.Spec.lean ====
/-
  Two layers of mean-aggregating graph convolution, as one function of the arrays, index by index, on the extended reals.

  A layer takes node features `feat` (one row of 128 per node), the neighbour sums `msg` of those features (row `p`
  the sum of the feature rows of the sources of the edges that end at node `p`), the in-degree column `cnt`, two
  weight matrices and a bias row, and gives at node `p`, output feature `q`

      ( sum over e of (msg (p, e) / max (cnt p) 1) * W_l (e, q) )  +  b q  +  ( sum over e of feat (p, e) * W_r (e, q) ).

  The first layer is followed by a maximum with zero; the second layer's neighbour sums are those of the first
  layer's result. How the neighbour sums are computed from the features never enters: `agg` below is any function
  of a feature array.

  The one law of the extended reals used between the two programs is at the bottom: multiplying by `1 / d` is
  dividing by `d` whenever `d` is `max c 1`, for every extended real `c` and every numerator, infinite ones
  included, because such a `d` is at least one and so not zero.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Node features: one row of 128 per node. -/
abbrev Feat : Type := (⟨2, ![100000, 128]⟩ : Shape).Idx → EReal
/-- A column over the nodes. -/
abbrev Col : Type := (⟨2, ![100000, 1]⟩ : Shape).Idx → EReal
/-- A weight matrix. -/
abbrev Mat : Type := (⟨2, ![128, 128]⟩ : Shape).Idx → EReal
/-- A bias row. -/
abbrev Bias : Type := (⟨1, ![128]⟩ : Shape).Idx → EReal

/-- The divisor of the mean at node `p`: the in-degree, or one where no edge ends. -/
def denom (cnt : Col) (p : Fin 100000) : EReal := max (cnt (ix2 p (0 : Fin 1))) 1

/-- The mean of the neighbours' features at node `p`, feature `e`. -/
def mean (msg : Feat) (cnt : Col) (p : Fin 100000) (e : Fin 128) : EReal :=
  Ideal.div (msg (ix2 p e)) (denom cnt p)

/-- One layer before its activation, at node `p` and output feature `q`. -/
def lin (msg feat : Feat) (cnt : Col) (Wl : Mat) (b : Bias) (Wr : Mat) (p : Fin 100000) (q : Fin 128) : EReal :=
  (∑ e : Fin 128, mean msg cnt p e * Wl (ix2 e q)) + b (ix1 q) + ∑ e : Fin 128, feat (ix2 p e) * Wr (ix2 e q)

/-- The first layer with its maximum against zero, as an array. -/
def hidden (agg : Feat → Feat) (x : Feat) (cnt : Col) (Wl : Mat) (b : Bias) (Wr : Mat) : Feat :=
  fun i => max (lin (agg x) x cnt Wl b Wr (i 0) (i 1)) 0

/-- The second layer, without activation, as an array. -/
def output (agg : Feat → Feat) (h : Feat) (cnt : Col) (Wl : Mat) (b : Bias) (Wr : Mat) : Feat :=
  fun i => lin (agg h) h cnt Wl b Wr (i 0) (i 1)

/-- Both layers. -/
def net (agg : Feat → Feat) (x : Feat) (cnt : Col) (Wl1 : Mat) (b1 : Bias) (Wr1 : Mat) (Wl2 : Mat) (b2 : Bias) (Wr2 : Mat) : Feat :=
  output agg (hidden agg x cnt Wl1 b1 Wr1) cnt Wl2 b2 Wr2

/-- The f32 word of one is the real one. -/
theorem one_word : Ideal.ofBits .f32 0x3F800000#32 = (1 : EReal) := by
  simp [Ideal.ofBits, Ideal.ieee, -EReal.coe_mul]; norm_num

/-- A maximum with one is not zero. -/
theorem max_one_ne_zero (c : EReal) : max c 1 ≠ 0 := by
  have h : (0 : EReal) < max c 1 := lt_of_lt_of_le zero_lt_one (le_max_right c 1)
  exact ne_of_gt h

/-- Multiplying by the reciprocal of `max c 1` is dividing by it, for every numerator. -/
theorem mul_recip_eq_div (x c : EReal) : x * Ideal.div 1 (max c 1) = Ideal.div x (max c 1) := by
  unfold Ideal.div
  rw [if_neg (max_one_ne_zero c), if_neg (max_one_ne_zero c), one_mul]

end Cert.Sage

end
-- ==== Proof.KernelHost.lean ====
/-
  What the kernel program's host operations compute, and what each of its two launches finds in its operand arrays.

  From the edge list the host takes the source row and the destination row; a source below zero is wrapped by the
  node count. The neighbour sums `agg` of a feature array are the scatter-add, over the destination column, of the
  source rows gathered from it; the in-degree column `cnt` is the scatter-add of ones over the same column; `recip` is
  one over the larger of the in-degree and one; the neighbour means as this program forms them, `means`, are the sums
  times that reciprocal broadcast along the features. The first launch reads the means of the input features, the
  features themselves, the first layer's weights and its bias as a one-row matrix; the second launch reads the means
  of the first launch's result, that result, and the second layer's weights and bias.
-/
import proofs.«123018_j14053132992904_1_alg».proof.Proof.Gen.KernelIdeal.Frame
import proofs.«123018_j14053132992904_1_alg».proof.Proof.Spec
import Idealize.ShloMosaic.Lib.StableHlo.Run
import Idealize.ShloMosaic.PureOps.Ideal
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- The edge list: row 0 the sources, row 1 the destinations. -/
abbrev Edges : Type := (⟨S2x500000, .i32⟩ : BufTy).Contents (Elt Ideal)

/-- The source of every edge. -/
def srcs (E : Edges) : (⟨S500000, .i32⟩ : BufTy).Contents (Elt Ideal) :=
  shapeCast S500000 (extractStridedSlice S1x500000 ![0, 0] E slices_S2x500000_S1x500000_0_0) shapeCasts_S1x500000_S500000

/-- The destination of every edge. -/
def dsts (E : Edges) : (⟨S500000, .i32⟩ : BufTy).Contents (Elt Ideal) :=
  shapeCast S500000 (extractStridedSlice S1x500000 ![1, 0] E slices_S2x500000_S1x500000_1_0) shapeCasts_S1x500000_S500000

/-- The destinations as a column of indices. -/
def dstCol (E : Edges) : (⟨S500000x1, .i32⟩ : BufTy).Contents (Elt Ideal) :=
  broadcastInDim S500000x1 ![0] bcast_S500000_S500000x1_0 (dsts E)

/-- The sources, a negative one wrapped by the node count, as a column of indices. -/
def srcCol (E : Edges) : (⟨S500000x1, .i32⟩ : BufTy).Contents (Elt Ideal) :=
  broadcastInDim S500000x1 ![0] bcast_S500000_S500000x1_0
    (select (cmpi .slt (srcs E) (broadcastInDim S500000 ![] bcast_S_S500000 (constantI S_ 32 0#32)))
      (addi (srcs E) (broadcastInDim S500000 ![] bcast_S_S500000 (constantI S_ 32 100000#32))) (srcs E))

/-- The neighbour sums of a feature array. -/
def agg (E : Edges) (feat : Sage.Feat) : Sage.Feat :=
  Host.scatterAdd (F := Ideal) scatter_S100000x128_S500000x1_S500000x128_1_0_0_1
    (broadcastInDim S100000x128 ![] bcast_S_S100000x128 (constant (F := Ideal) S_ .f32 0x00000000#32)) (dstCol E)
    (Host.gather gather_S100000x128_S500000x1_S500000x128_1_0_n_n_0_1_1128 feat (srcCol E))

/-- The in-degree column. -/
def cnt (E : Edges) : Sage.Col :=
  Host.scatterAdd (F := Ideal) scatter_S100000x1_S500000x1_S500000x1_1_0_0_1
    (broadcastInDim S100000x1 ![] bcast_S_S100000x1 (constant (F := Ideal) S_ .f32 0x00000000#32)) (dstCol E)
    (broadcastInDim S500000x1 ![] bcast_S_S500000x1 (constant (F := Ideal) S_ .f32 0x3F800000#32))

/-- One over the larger of the in-degree and one. -/
def recip (E : Edges) : Sage.Col :=
  Host.divf (F := Ideal) (broadcastInDim S100000x1 ![] bcast_S_S100000x1 (constant (F := Ideal) S_ .f32 0x3F800000#32))
    (maximumf (F := Ideal) (φ := .f32) (cnt E) (broadcastInDim S100000x1 ![] bcast_S_S100000x1 (constant (F := Ideal) S_ .f32 0x3F800000#32)))

/-- The neighbour means as this program forms them: the sums times the reciprocal. -/
def means (E : Edges) (feat : Sage.Feat) : Sage.Feat :=
  mulf (F := Ideal) (φ := .f32) (agg E feat) (broadcastInDim S100000x128 ![0, 1] bcast_S100000x1_S100000x128_0_1 (recip E))

/-- A bias as a one-row matrix. -/
def biasRow (b : Sage.Bias) : (⟨S1x128, .f32⟩ : BufTy).Contents (Elt Ideal) :=
  shapeCast S1x128 b shapeCasts_S128_S1x128

variable (m : (ℓ : Loc nD τ sig) → Buf (Elt Ideal) ℓ) (ρ : Dev nD → PrngReg) (c : Dev nD)

/-! ## What the first launch finds -/

theorem first_means : V1 m ρ c main_v23 = means (m ((c : Thread nD τ).loc main_arg1)) (m ((c : Thread nD τ).loc main_arg0)) := by
  show StableHlo.after hostOps0 (W0 m ρ c) (Proc.devRef .tc main_v23) = _
  after_results_simp
  rfl

theorem first_bias : V1 m ρ c main_v24 = biasRow (m ((c : Thread nD τ).loc main_arg3)) := by
  show StableHlo.after hostOps0 (W0 m ρ c) (Proc.devRef .tc main_v24) = _
  after_results_simp
  rfl

theorem first_feat : V1 m ρ c main_arg0 = m ((c : Thread nD τ).loc main_arg0) := by
  show StableHlo.after hostOps0 (W0 m ρ c) (Proc.devRef .tc main_arg0) = _
  after_results_simp

theorem first_Wl : V1 m ρ c main_arg2 = m ((c : Thread nD τ).loc main_arg2) := by
  show StableHlo.after hostOps0 (W0 m ρ c) (Proc.devRef .tc main_arg2) = _
  after_results_simp

theorem first_Wr : V1 m ρ c main_arg4 = m ((c : Thread nD τ).loc main_arg4) := by
  show StableHlo.after hostOps0 (W0 m ρ c) (Proc.devRef .tc main_arg4) = _
  after_results_simp

/-! ## What the first launch leaves for the host operations after it -/

theorem mid_srcs : W2 m ρ c (Proc.devRef .tc main_v1) = srcs (m ((c : Thread nD τ).loc main_arg1)) := by
  rw [W2_of_ne m ρ c main_v1 (by decide)]
  show StableHlo.after hostOps0 (W0 m ρ c) (Proc.devRef .tc main_v1) = _
  after_results_simp
  rfl

theorem mid_dsts : W2 m ρ c (Proc.devRef .tc main_v3) = dsts (m ((c : Thread nD τ).loc main_arg1)) := by
  rw [W2_of_ne m ρ c main_v3 (by decide)]
  show StableHlo.after hostOps0 (W0 m ρ c) (Proc.devRef .tc main_v3) = _
  after_results_simp
  rfl

theorem mid_recip : W2 m ρ c (Proc.devRef .tc main_v11) = recip (m ((c : Thread nD τ).loc main_arg1)) := by
  rw [W2_of_ne m ρ c main_v11 (by decide)]
  show StableHlo.after hostOps0 (W0 m ρ c) (Proc.devRef .tc main_v11) = _
  after_results_simp
  rfl

theorem mid_arg5 : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp

theorem mid_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp

theorem mid_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp

/-- The first launch's result array, as the host operations after it find it. -/
theorem mid_hidden : W2 m ρ c (Proc.devRef .tc main_v25) = (dat0 (V1 m ρ) c).arrAt 5 cfg0.N :=
  W2_arr m ρ c 5

/-! ## What the second launch finds -/

theorem second_means : V3 m ρ c main_v37
    = means (m ((c : Thread nD τ).loc main_arg1)) (W2 m ρ c (Proc.devRef .tc main_v25)) := by
  show StableHlo.after hostOps1 (W2 m ρ c) (Proc.devRef .tc main_v37) = _
  after_results_simp
  rw [mid_srcs m ρ c, mid_dsts m ρ c, mid_recip m ρ c]
  rfl

theorem second_feat : V3 m ρ c main_v25 = W2 m ρ c (Proc.devRef .tc main_v25) := by
  show StableHlo.after hostOps1 (W2 m ρ c) (Proc.devRef .tc main_v25) = _
  after_results_simp

theorem second_bias : V3 m ρ c main_v38 = biasRow (m ((c : Thread nD τ).loc main_arg6)) := by
  show StableHlo.after hostOps1 (W2 m ρ c) (Proc.devRef .tc main_v38) = _
  after_results_simp
  rw [mid_arg6 m ρ c]
  rfl

theorem second_Wl : V3 m ρ c main_arg5 = m ((c : Thread nD τ).loc main_arg5) := by
  show StableHlo.after hostOps1 (W2 m ρ c) (Proc.devRef .tc main_arg5) = _
  after_results_simp
  exact mid_arg5 m ρ c

theorem second_Wr : V3 m ρ c main_arg7 = m ((c : Thread nD τ).loc main_arg7) := by
  show StableHlo.after hostOps1 (W2 m ρ c) (Proc.devRef .tc main_arg7) = _
  after_results_simp
  exact mid_arg7 m ρ c

end Cert.KernelIdeal.HostValue

end
-- ==== Proof.Layer.lean ====
/-
  What one kernel launch computes, over whole arrays: from a mean array `a`, a feature array `x`, two weight matrices
  and a bias kept as a one-row matrix, the array whose entry at node `p`, output feature `q` is

      ( sum over e of a (p, e) * W_l (e, q) )  +  bias (0, q)  +  ( sum over e of x (p, e) * W_r (e, q) ),

  and the same followed by a maximum with zero. Each of the twenty row blocks of a launch is the restriction of this
  one function to its 5000 rows, because entry (p, q) depends only on row p of `a` and `x`.
-/
import proofs.«123018_j14053132992904_1_alg».proof.Proof.Spec

noncomputable section

namespace Cert.Sage

open Idealize.ShloMosaic Idealize.ShloMosaic.ValueIdx

/-- A bias kept as a one-row matrix. -/
abbrev BiasRow : Type := (⟨2, ![1, 128]⟩ : Shape).Idx → EReal

/-- One launch without activation, as an array. -/
def lay (a x : Feat) (Wl : Mat) (bRow : BiasRow) (Wr : Mat) : Feat := fun i =>
  (∑ e : Fin 128, a (ix2 (i 0) e) * Wl (ix2 e (i 1))) + bRow (ix2 (0 : Fin 1) (i 1)) + ∑ e : Fin 128, x (ix2 (i 0) e) * Wr (ix2 e (i 1))

/-- One launch followed by the maximum with zero, as an array. -/
def layRelu (a x : Feat) (Wl : Mat) (bRow : BiasRow) (Wr : Mat) : Feat := fun i => max (lay a x Wl bRow Wr i) 0

end Cert.Sage

end
-- ==== Proof.KernelAlgebra.lean ====
/-
  The kernel program's layers are the specification's layers.

  The program forms a neighbour mean as the sum times `1 / max cnt 1`, the specification as the sum divided by
  `max cnt 1`; these agree at every extended real because `max cnt 1` is never zero. The bias the launch reads as a
  one-row matrix is the bias vector. So a launch over the program's means, a feature array and a layer's parameters
  is that layer of the specification, entry by entry. Nothing here looks inside the neighbour sums or the in-degree:
  the lemmas are stated for any array of sums and any column of counts.
-/
import proofs.«123018_j14053132992904_1_alg».proof.Proof.KernelHost
import proofs.«123018_j14053132992904_1_alg».proof.Proof.Layer
import Idealize.ShloMosaic.Lib.Pipeline.Value
import Idealize.ShloMosaic.Lib.ValueLayout

set_option maxRecDepth 16384

noncomputable section

namespace Cert.KernelIdeal.HostValue

open Cert.KernelIdeal Cert.KernelIdeal.Gen
open Idealize.ShloMosaic Idealize.ShloMosaic.ValueIdx

/-- The f32 one over a column of nodes. -/
def oneCol : Sage.Col :=
  broadcastInDim S100000x1 ![] bcast_S_S100000x1 (constant (F := Ideal) S_ .f32 0x3F800000#32)

theorem oneCol_apply (j : S100000x1.Idx) : oneCol j = 1 := by
  unfold oneCol
  rw [broadcastInDim_apply _ bcast_S_S100000x1 (constant (F := Ideal) S_ .f32 0x3F800000#32) j (fun a => a.elim0) (fun a => a.elim0)]
  exact Sage.one_word

/-- One over the larger of a count column and one, as the program writes it. -/
def recipOf (cn : Sage.Col) : Sage.Col :=
  Host.divf (F := Ideal) oneCol (maximumf (F := Ideal) (φ := .f32) cn oneCol)

/-- A sum array times the reciprocal column broadcast along the features, as the program writes it. -/
def meansOf (s : Sage.Feat) (cn : Sage.Col) : Sage.Feat :=
  mulf (F := Ideal) (φ := .f32) s (broadcastInDim S100000x128 ![0, 1] bcast_S100000x1_S100000x128_0_1 (recipOf cn))

/-- The reciprocal column at node `p`. -/
theorem recipOf_apply (cn : Sage.Col) (p : Fin 100000) :
    recipOf cn (ix2 p (0 : Fin 1)) = Ideal.div 1 (Sage.denom cn p) := by
  have h : recipOf cn (ix2 p (0 : Fin 1))
      = Ideal.div (oneCol (ix2 p (0 : Fin 1))) (max (cn (ix2 p (0 : Fin 1))) (oneCol (ix2 p (0 : Fin 1)))) := rfl
  rw [h, oneCol_apply]
  rfl

/-- The reciprocal column broadcast along the features reads, at `(p, e)`, the column at `p`. -/
theorem bcastCol_apply (v : Sage.Col) (p : Fin 100000) (e : Fin 128) :
    broadcastInDim S100000x128 ![0, 1] bcast_S100000x1_S100000x128_0_1 v (ix2 p e) = v (ix2 p (0 : Fin 1)) :=
  broadcastInDim_apply _ bcast_S100000x1_S100000x128_0_1 v (ix2 p e) (ix2 p (0 : Fin 1)) (fun a => match a with
    | ⟨0, _⟩ => by show p.val = if (100000 : Nat) = 1 then 0 else p.val; rw [if_neg (by decide)]
    | ⟨1, _⟩ => by show 0 = if (1 : Nat) = 1 then 0 else e.val; rw [if_pos rfl])

/-- The program's mean at node `p`, feature `e`, is the specification's, for any sums and counts. -/
theorem meansOf_apply (s : Sage.Feat) (cn : Sage.Col) (p : Fin 100000) (e : Fin 128) :
    meansOf s cn (ix2 p e) = Sage.mean s cn p e := by
  have h : meansOf s cn (ix2 p e)
      = s (ix2 p e) * broadcastInDim S100000x128 ![0, 1] bcast_S100000x1_S100000x128_0_1 (recipOf cn) (ix2 p e) := rfl
  rw [h, bcastCol_apply, recipOf_apply]
  unfold Sage.mean Sage.denom
  exact Sage.mul_recip_eq_div _ _

/-- The bias as a one-row matrix reads, at `(0, q)`, the bias at `q`. -/
theorem biasRow_apply (b : Sage.Bias) (q : Fin 128) : biasRow b (ix2 (0 : Fin 1) q) = b (ix1 q) :=
  ValueIdx.shapeCast_a_1a_apply b shapeCasts_S128_S1x128 0 q

/-- A launch over such means is the specification's layer, as arrays. -/
theorem lay_meansOf (s feat : Sage.Feat) (cn : Sage.Col) (Wl : Sage.Mat) (b : Sage.Bias) (Wr : Sage.Mat) :
    Sage.lay (meansOf s cn) feat Wl (biasRow b) Wr = fun i => Sage.lin s feat cn Wl b Wr (i 0) (i 1) := by
  funext i
  obtain ⟨p, q, rfl⟩ : ∃ (p : Fin 100000) (q : Fin 128), i = ix2 p q := ⟨i 0, i 1, eq_ix2 i⟩
  show (∑ e : Fin 128, meansOf s cn (ix2 p e) * Wl (ix2 e q)) + biasRow b (ix2 (0 : Fin 1) q)
      + ∑ e : Fin 128, feat (ix2 p e) * Wr (ix2 e q) = Sage.lin s feat cn Wl b Wr p q
  rw [biasRow_apply]
  simp only [meansOf_apply]
  rfl

/-- The program's means are such means of its own sums and counts. -/
theorem means_eq (E : Edges) (feat : Sage.Feat) : means E feat = meansOf (agg E feat) (cnt E) := rfl

/-- The first launch, with its maximum against zero, is the specification's hidden layer. -/
theorem layRelu_means (E : Edges) (x : Sage.Feat) (Wl : Sage.Mat) (b : Sage.Bias) (Wr : Sage.Mat) :
    Sage.layRelu (means E x) x Wl (biasRow b) Wr = Sage.hidden (agg E) x (cnt E) Wl b Wr := by
  unfold Sage.layRelu Sage.hidden
  rw [means_eq, lay_meansOf]

/-- The second launch over the hidden layer is the specification's output layer. -/
theorem lay_means_output (E : Edges) (h : Sage.Feat) (Wl : Sage.Mat) (b : Sage.Bias) (Wr : Sage.Mat) :
    Sage.lay (means E h) h Wl (biasRow b) Wr = Sage.output (agg E) h (cnt E) Wl b Wr := by
  unfold Sage.output
  rw [means_eq, lay_meansOf]

end Cert.KernelIdeal.HostValue

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.Payload.lean ====
/-
  What each copy of the kernel body stores, read at an index, at the exact extended reals.

  The body loads a `[5000, 128]` block `A` of neighbour means, a `[5000, 128]` block `X` of features, two `[128, 128]`
  weight matrices `Wl`, `Wr` and a `[1, 128]` bias row `b`, and stores `A · Wl + b + X · Wr` (the first copy: its
  maximum with zero). At the extended reals the narrowing format changes are the identity, a shape cast to the same shape
  is the identity, the bias row broadcast over the 5000 rows reads the row, and each product into the zero accumulator is
  the plain sum over the contracted axis. So entry `(r, q)` of the stored block is
  `∑ e, A (r, e) * Wl (e, q) + b (0, q) + ∑ e, X (r, e) * Wr (e, q)`, for the first copy under `max · 0`.
-/
import proofs.«123018_j14053132992904_1_alg».proof.Proof.Gen.KernelIdeal.Skeleton
import proofs.«123018_j14053132992904_1_alg».proof.Proof.LibMatmulNN
import Idealize.ShloMosaic.Lib.ValueIdx
import Idealize.ShloMosaic.Lib.Pipeline.Value
import Idealize.ShloMosaic.Lib.ValueLayout
import Idealize.ShloMosaic.PureOps.Ideal.Laws

noncomputable section

namespace Cert.KernelPayload

open Cert.KernelIdeal Cert.KernelIdeal.Gen Idealize.ShloMosaic Idealize.ShloMosaic.ValueIdx

/-- A product of a `[5000, 128]` block against a `[128, 128]` matrix into the zero accumulator, read at `(r, q)`:
    row `r` of the block against column `q` of the matrix. -/
theorem mm_apply (a : FVec Ideal S5000x128 .bf16) (b : FVec Ideal S128x128 .bf16) (r : Fin 5000) (q : Fin 128) :
    matmul (F := Ideal) dot_S5000x128_S128x128_S5000x128_1_0_0_1_n_n none a b (constant (F := Ideal) S5000x128 .f32 0x00000000#32) (ix2 r q)
      = ∑ e : Fin 128, a (ix2 r e) * b (ix2 e q) :=
  Cert.LibMatmulNN.matmul_zero_apply dot_S5000x128_S128x128_S5000x128_1_0_0_1_n_n_wf none a b r q

/-- The first copy's stored block at `(r, q)`: the two row-against-column sums and the bias entry, under a maximum with
    zero. -/
theorem pay0_apply (v0 v3 : Vec Ideal S5000x128 .f32) (v5 v7 : Vec Ideal S128x128 .f32) (v10 : Vec Ideal S1x128 .f32) (r : Fin 5000) (q : Fin 128) :
    k0_pay1 (F := Ideal) v0 v3 v5 v7 v10 (ix2 r q)
      = max ((∑ e : Fin 128, v0 (ix2 r e) * v5 (ix2 e q)) + v10 (ix2 (0 : Fin 1) q) + ∑ e : Fin 128, v3 (ix2 r e) * v7 (ix2 e q)) 0 := by
  unfold k0_pay1
  -- the pointwise operations read through; each product is its sum; the broadcast row is the row; the casts vanish
  rw [maximumf_apply, addf_apply, addf_apply, mm_apply, mm_apply, broadcast_apply,
    broadcastTo_1b_ab_apply, shapeCast_self, shapeCast_self]
  -- the scalar zero word is the extended real 0; the format changes are the identity
  show max (_ + _ + _) (Ideal.ofBits .f32 0x00000000#32) = _
  rw [Ideal.ofBits_zero_f32]
  rfl

/-- The second copy's stored block at `(r, q)`: the two row-against-column sums and the bias entry. -/
theorem pay1_apply (v0 v3 : Vec Ideal S5000x128 .f32) (v6 v8 : Vec Ideal S128x128 .f32) (v11 : Vec Ideal S1x128 .f32) (r : Fin 5000) (q : Fin 128) :
    k1_pay1 (F := Ideal) v0 v3 v6 v8 v11 (ix2 r q)
      = (∑ e : Fin 128, v0 (ix2 r e) * v6 (ix2 e q)) + v11 (ix2 (0 : Fin 1) q) + ∑ e : Fin 128, v3 (ix2 r e) * v8 (ix2 e q) := by
  unfold k1_pay1
  rw [addf_apply, addf_apply, mm_apply, mm_apply, broadcastTo_1b_ab_apply, shapeCast_self, shapeCast_self,
    shapeCast_self]
  rfl

end Cert.KernelPayload

end
-- ==== Proof.Blocks.lean ====
/-
  From blocks to the whole array, for each of the two launches.

  A launch runs over twenty grid points; point `t` loads rows `5000 t … 5000 t + 4999` of the mean array and of the
  feature array, the two whole weight matrices and the whole bias row, and writes back the same rows of the output.
  Entry `(p, q)` of the layer depends only on row `p` of the means and the features, so what point `t` writes back is
  the restriction of the one whole-array layer to its rows; the twenty row blocks cover the array (row `p` lies in block
  `p / 5000`), hence after the launch the output array is the layer of the arrays as the launch found them. The first
  launch's layer ends with the maximum with zero; the second's does not.
-/
import proofs.«123018_j14053132992904_1_alg».proof.Proof.Gen.KernelIdeal.Frame
import proofs.«123018_j14053132992904_1_alg».proof.Proof.Layer
import proofs.«123018_j14053132992904_1_alg».proof.Proof.Payload
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- The zero offsets of a rank-2 access, as a constant function. -/
theorem zeros2 : (![0, 0] : Fin 2 → Nat) = fun _ => 0 := funext fun a => by fin_cases a <;> rfl

/-! ## The first launch -/

/-- What the body leaves in the output block, read at `(r, q)`, from the five loaded blocks. -/
theorem out0_apply (x0 x1 : Vec Ideal S5000x128 .f32) (x2 : Vec Ideal S128x128 .f32) (x3 : Vec Ideal S1x128 .f32) (x4 : Vec Ideal S128x128 .f32)
    (r : Fin 5000) (q : Fin 128) :
    out0_5 (F := Ideal) x0 x1 x2 x3 x4 (ix2 r q)
      = max ((∑ e : Fin 128, x0 (ix2 r e) * x2 (ix2 e q)) + x3 (ix2 (0 : Fin 1) q) + ∑ e : Fin 128, x1 (ix2 r e) * x4 (ix2 e q)) 0 := by
  unfold out0_5
  rw [View.canon_unit_zero zeros2]
  simp only [View.ld_unit_zero (S := S5000x128) zeros2, View.ld_unit_zero (S := S128x128) zeros2, View.ld_unit_zero (S := S1x128) zeros2]
  exact Cert.KernelPayload.pay0_apply x0 x1 x2 x4 x3 r q

/-- If the loaded blocks are, along row `r` and column `q`, row `i 0` of the mean and feature arrays, column `i 1` of
    the two weight matrices and entry `i 1` of the bias row, the output block at `(r, q)` is the layer with its maximum
    with zero, at `i`. -/
theorem out0_eq_layRelu (a x : Sage.Feat) (Wl : Sage.Mat) (b : Sage.BiasRow) (Wr : Sage.Mat)
    (x0 x1 : Vec Ideal S5000x128 .f32) (x2 : Vec Ideal S128x128 .f32) (x3 : Vec Ideal S1x128 .f32) (x4 : Vec Ideal S128x128 .f32)
    (i : S100000x128.Idx) (r : Fin 5000) (q : Fin 128)
    (h0 : ∀ e : Fin 128, x0 (ix2 r e) = a (ix2 (i 0) e))
    (h1 : ∀ e : Fin 128, x1 (ix2 r e) = x (ix2 (i 0) e))
    (h2 : ∀ e : Fin 128, x2 (ix2 e q) = Wl (ix2 e (i 1)))
    (h3 : x3 (ix2 (0 : Fin 1) q) = b (ix2 (0 : Fin 1) (i 1)))
    (h4 : ∀ e : Fin 128, x4 (ix2 e q) = Wr (ix2 e (i 1))) :
    out0_5 (F := Ideal) x0 x1 x2 x3 x4 (ix2 r q) = Sage.layRelu a x Wl b Wr i := by
  rw [out0_apply]
  unfold Sage.layRelu Sage.lay
  simp only [h0, h1, h2, h3, h4]

/-- The index maps over the twenty grid points: the row blocks of the means, the features and the output move with the
    point; the weights and the bias row stay. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What grid point `t` writes back is block `t` of the layer of the arrays as the launch finds them: rows
    `5000 t … 5000 t + 4999`, each of which depends only on the same row of the means and the features. -/
theorem flushed0_eq (c : Dev nD) (t : Fin cfg0.N) :
    (dat0 V c).flushed 5 t = ((cfg0.win 5).blk t).view.read (Elt Ideal)
      (Sage.layRelu (V c main_v23) (V c main_arg0) (V c main_arg2) (V c main_v24) (V c main_arg4)) := by
  show (cfg0.win 5).cut (grid0.coords t) ((dat0 V c).after 5 t) = _
  rw [after0_5]
  obtain ⟨a00, a01, a10, a11, a20, a21, a30, a31, a40, a41, a50, a51⟩ := index_facts0 t
  funext y
  obtain ⟨r, q, rfl⟩ : ∃ (r : Fin 5000) (q : Fin 128), y = ix2 r q := ⟨y 0, y 1, eq_ix2 y⟩
  refine out0_eq_layRelu (V c main_v23) (V c main_arg0) (V c main_arg2) (V c main_v24) (V c main_arg4)
    (iblk0 V c 0 t) (iblk0 V c 1 t) (iblk0 V c 2 t) (iblk0 V c 3 t) (iblk0 V c 4 t)
    (((cfg0.win 5).blk t).view.emb (ix2 r q)) r q ?_ ?_ ?_ ?_ ?_
  · intro e
    show V c main_v23 (((cfg0.win 0).blk t).view.emb (ix2 r e)) = V c main_v23 _
    refine congrArg (V c main_v23) (funext fun ax => Fin.ext ?_)
    match ax with
    | ⟨0, _⟩ => show win0_0.index t (0 : Fin 2) * 5000 + 1 * r.val = win0_5.index t (0 : Fin 2) * 5000 + 1 * r.val; omega
    | ⟨1, _⟩ => show win0_0.index t (1 : Fin 2) * 128 + 1 * e.val = e.val; omega
  · intro e
    show V c main_arg0 (((cfg0.win 1).blk t).view.emb (ix2 r e)) = V c main_arg0 _
    refine congrArg (V c main_arg0) (funext fun ax => Fin.ext ?_)
    match ax with
    | ⟨0, _⟩ => show win0_1.index t (0 : Fin 2) * 5000 + 1 * r.val = win0_5.index t (0 : Fin 2) * 5000 + 1 * r.val; omega
    | ⟨1, _⟩ => show win0_1.index t (1 : Fin 2) * 128 + 1 * e.val = e.val; omega
  · intro e
    show V c main_arg2 (((cfg0.win 2).blk t).view.emb (ix2 e q)) = V c main_arg2 _
    refine congrArg (V c main_arg2) (funext fun ax => Fin.ext ?_)
    match ax with
    | ⟨0, _⟩ => show win0_2.index t (0 : Fin 2) * 128 + 1 * e.val = e.val; omega
    | ⟨1, _⟩ => show win0_2.index t (1 : Fin 2) * 128 + 1 * q.val = win0_5.index t (1 : Fin 2) * 128 + 1 * q.val; omega
  · show V c main_v24 (((cfg0.win 3).blk t).view.emb (ix2 (0 : Fin 1) q)) = V c main_v24 _
    refine congrArg (V c main_v24) (funext fun ax => Fin.ext ?_)
    match ax with
    | ⟨0, _⟩ => show win0_3.index t (0 : Fin 2) * 1 + 1 * 0 = 0; omega
    | ⟨1, _⟩ => show win0_3.index t (1 : Fin 2) * 128 + 1 * q.val = win0_5.index t (1 : Fin 2) * 128 + 1 * q.val; omega
  · intro e
    show V c main_arg4 (((cfg0.win 4).blk t).view.emb (ix2 e q)) = V c main_arg4 _
    refine congrArg (V c main_arg4) (funext fun ax => Fin.ext ?_)
    match ax with
    | ⟨0, _⟩ => show win0_4.index t (0 : Fin 2) * 128 + 1 * e.val = e.val; omega
    | ⟨1, _⟩ => show win0_4.index t (1 : Fin 2) * 128 + 1 * q.val = win0_5.index t (1 : Fin 2) * 128 + 1 * q.val; omega

/-- An index of the array is in point `t`'s output block iff each coordinate is in the block's range on its axis. -/
theorem mem_block0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- The twenty output blocks cover the array: row `p` is in the block of point `p / 5000`. -/
theorem covered0 (i : S100000x128.Idx) :
    ∃ t : Fin cfg0.N, (cfg0.win 5).flush t = true ∧ i ∈ ((cfg0.win 5).blk t).view.set := by
  have hN : cfg0.N = 20 := N_0
  have hi0 : (i 0).val < 100000 := idx2_lt0 i
  have hi1 : (i 1).val < 128 := idx2_lt1 i
  let t : Fin cfg0.N := ⟨(i 0).val / 5000, by rw [hN]; omega⟩
  obtain ⟨-, -, -, -, -, -, -, -, -, -, a50, a51⟩ := index_facts0 t
  have ht : t.val = (i 0).val / 5000 := rfl
  refine ⟨t, flush0_5 t, ?_⟩
  rw [mem_block0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the first launch the output array holds the layer followed by the maximum with zero, of the arrays as the launch
    finds them. -/
theorem final0 (c : Dev nD) :
    (dat0 V c).arrAt 5 cfg0.N = Sage.layRelu (V c main_v23) (V c main_arg0) (V c main_arg2) (V c main_v24) (V c main_arg4) :=
  (dat0 V c).arrAt_eq_of_cover 5 _ (fun t _ => flushed0_eq V c t) covered0

/-! ## The second launch -/

/-- What the body leaves in the output block, read at `(r, q)`, from the five loaded blocks. -/
theorem out1_apply (x0 x1 : Vec Ideal S5000x128 .f32) (x2 : Vec Ideal S128x128 .f32) (x3 : Vec Ideal S1x128 .f32) (x4 : Vec Ideal S128x128 .f32)
    (r : Fin 5000) (q : Fin 128) :
    out1_5 (F := Ideal) x0 x1 x2 x3 x4 (ix2 r q)
      = (∑ e : Fin 128, x0 (ix2 r e) * x2 (ix2 e q)) + x3 (ix2 (0 : Fin 1) q) + ∑ e : Fin 128, x1 (ix2 r e) * x4 (ix2 e q) := by
  unfold out1_5
  rw [View.canon_unit_zero zeros2]
  simp only [View.ld_unit_zero (S := S5000x128) zeros2, View.ld_unit_zero (S := S128x128) zeros2, View.ld_unit_zero (S := S1x128) zeros2]
  exact Cert.KernelPayload.pay1_apply x0 x1 x2 x4 x3 r q

/-- If the loaded blocks are, along row `r` and column `q`, row `i 0` of the mean and feature arrays, column `i 1` of
    the two weight matrices and entry `i 1` of the bias row, the output block at `(r, q)` is the layer (no maximum) at `i`. -/
theorem out1_eq_lay (a x : Sage.Feat) (Wl : Sage.Mat) (b : Sage.BiasRow) (Wr : Sage.Mat)
    (x0 x1 : Vec Ideal S5000x128 .f32) (x2 : Vec Ideal S128x128 .f32) (x3 : Vec Ideal S1x128 .f32) (x4 : Vec Ideal S128x128 .f32)
    (i : S100000x128.Idx) (r : Fin 5000) (q : Fin 128)
    (h0 : ∀ e : Fin 128, x0 (ix2 r e) = a (ix2 (i 0) e))
    (h1 : ∀ e : Fin 128, x1 (ix2 r e) = x (ix2 (i 0) e))
    (h2 : ∀ e : Fin 128, x2 (ix2 e q) = Wl (ix2 e (i 1)))
    (h3 : x3 (ix2 (0 : Fin 1) q) = b (ix2 (0 : Fin 1) (i 1)))
    (h4 : ∀ e : Fin 128, x4 (ix2 e q) = Wr (ix2 e (i 1))) :
    out1_5 (F := Ideal) x0 x1 x2 x3 x4 (ix2 r q) = Sage.lay a x Wl b Wr i := by
  rw [out1_apply]
  unfold Sage.lay
  simp only [h0, h1, h2, h3, h4]

/-- The index maps over the twenty grid points: the row blocks of the means, the features and the output move with the
    point; the weights and the bias row stay. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point `t` writes back is block `t` of the layer of the arrays as the launch finds them: rows
    `5000 t … 5000 t + 4999`, each of which depends only on the same row of the means and the features. -/
theorem flushed1_eq (c : Dev nD) (t : Fin cfg1.N) :
    (dat1 V c).flushed 5 t = ((cfg1.win 5).blk t).view.read (Elt Ideal)
      (Sage.lay (V c main_v37) (V c main_v25) (V c main_arg5) (V c main_v38) (V c main_arg7)) := by
  show (cfg1.win 5).cut (grid1.coords t) ((dat1 V c).after 5 t) = _
  rw [after1_5]
  obtain ⟨a00, a01, a10, a11, a20, a21, a30, a31, a40, a41, a50, a51⟩ := index_facts1 t
  funext y
  obtain ⟨r, q, rfl⟩ : ∃ (r : Fin 5000) (q : Fin 128), y = ix2 r q := ⟨y 0, y 1, eq_ix2 y⟩
  refine out1_eq_lay (V c main_v37) (V c main_v25) (V c main_arg5) (V c main_v38) (V c main_arg7)
    (iblk1 V c 0 t) (iblk1 V c 1 t) (iblk1 V c 2 t) (iblk1 V c 3 t) (iblk1 V c 4 t)
    (((cfg1.win 5).blk t).view.emb (ix2 r q)) r q ?_ ?_ ?_ ?_ ?_
  · intro e
    show V c main_v37 (((cfg1.win 0).blk t).view.emb (ix2 r e)) = V c main_v37 _
    refine congrArg (V c main_v37) (funext fun ax => Fin.ext ?_)
    match ax with
    | ⟨0, _⟩ => show win1_0.index t (0 : Fin 2) * 5000 + 1 * r.val = win1_5.index t (0 : Fin 2) * 5000 + 1 * r.val; omega
    | ⟨1, _⟩ => show win1_0.index t (1 : Fin 2) * 128 + 1 * e.val = e.val; omega
  · intro e
    show V c main_v25 (((cfg1.win 1).blk t).view.emb (ix2 r e)) = V c main_v25 _
    refine congrArg (V c main_v25) (funext fun ax => Fin.ext ?_)
    match ax with
    | ⟨0, _⟩ => show win1_1.index t (0 : Fin 2) * 5000 + 1 * r.val = win1_5.index t (0 : Fin 2) * 5000 + 1 * r.val; omega
    | ⟨1, _⟩ => show win1_1.index t (1 : Fin 2) * 128 + 1 * e.val = e.val; omega
  · intro e
    show V c main_arg5 (((cfg1.win 2).blk t).view.emb (ix2 e q)) = V c main_arg5 _
    refine congrArg (V c main_arg5) (funext fun ax => Fin.ext ?_)
    match ax with
    | ⟨0, _⟩ => show win1_2.index t (0 : Fin 2) * 128 + 1 * e.val = e.val; omega
    | ⟨1, _⟩ => show win1_2.index t (1 : Fin 2) * 128 + 1 * q.val = win1_5.index t (1 : Fin 2) * 128 + 1 * q.val; omega
  · show V c main_v38 (((cfg1.win 3).blk t).view.emb (ix2 (0 : Fin 1) q)) = V c main_v38 _
    refine congrArg (V c main_v38) (funext fun ax => Fin.ext ?_)
    match ax with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega
  · intro e
    show V c main_arg7 (((cfg1.win 4).blk t).view.emb (ix2 e q)) = V c main_arg7 _
    refine congrArg (V c main_arg7) (funext fun ax => Fin.ext ?_)
    match ax with
    | ⟨0, _⟩ => show win1_4.index t (0 : Fin 2) * 128 + 1 * e.val = e.val; omega
    | ⟨1, _⟩ => show win1_4.index t (1 : Fin 2) * 128 + 1 * q.val = win1_5.index t (1 : Fin 2) * 128 + 1 * q.val; omega

/-- An index of the array is in point `t`'s output block iff each coordinate is in the block's range on its axis. -/
theorem mem_block1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- The twenty output blocks cover the array: row `p` is in the block of point `p / 5000`. -/
theorem covered1 (i : S100000x128.Idx) :
    ∃ t : Fin cfg1.N, (cfg1.win 5).flush t = true ∧ i ∈ ((cfg1.win 5).blk t).view.set := by
  have hN : cfg1.N = 20 := N_1
  have hi0 : (i 0).val < 100000 := idx2_lt0 i
  have hi1 : (i 1).val < 128 := idx2_lt1 i
  let t : Fin cfg1.N := ⟨(i 0).val / 5000, by rw [hN]; omega⟩
  obtain ⟨-, -, -, -, -, -, -, -, -, -, a50, a51⟩ := index_facts1 t
  have ht : t.val = (i 0).val / 5000 := rfl
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the second launch the output array holds the layer, without the maximum, of the arrays as the launch finds them. -/
theorem final1 (c : Dev nD) :
    (dat1 V c).arrAt 5 cfg1.N = Sage.lay (V c main_v37) (V c main_v25) (V c main_arg5) (V c main_v38) (V c main_arg7) :=
  (dat1 V c).arrAt_eq_of_cover 5 _ (fun t _ => flushed1_eq V c t) covered1

end Cert.KernelIdeal.Blocks

end
-- ==== Proof.KernelValue.lean ====
/-
  The kernel program's result array is the specification's two layers of the argument arrays.

  The last boundary's contents at the result buffer are what the second launch leaves in its output array: the launch
  function of the arrays that launch finds. Those are the program's means of the first launch's result, that result,
  and the second layer's parameters; the first launch's result is in turn the launch function, with the maximum against
  zero, of the means of the input features, the features and the first layer's parameters. Each launch over the
  program's means is a layer of the specification.
-/
import proofs.«123018_j14053132992904_1_alg».proof.Proof.KernelAlgebra
import proofs.«123018_j14053132992904_1_alg».proof.Proof.Blocks

set_option maxRecDepth 16384

noncomputable section

namespace Cert.KernelIdeal.HostValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The first launch's result: the specification's hidden layer of the arguments. -/
theorem hidden_value : W2 m ρ c (Proc.devRef .tc main_v25)
    = Sage.hidden (agg (m ((c : Thread nD τ).loc main_arg1))) (m ((c : Thread nD τ).loc main_arg0)) (cnt (m ((c : Thread nD τ).loc main_arg1)))
        (m ((c : Thread nD τ).loc main_arg2)) (m ((c : Thread nD τ).loc main_arg3)) (m ((c : Thread nD τ).loc main_arg4)) := by
  rw [mid_hidden m ρ c, Blocks.final0 (V1 m ρ) c, first_means m ρ c, first_feat m ρ c, first_Wl m ρ c, first_bias m ρ c, first_Wr m ρ c]
  exact layRelu_means _ _ _ _ _

/-- The program's result: both layers of the specification. -/
theorem result_value : W4 m ρ c (Proc.devRef .tc main_v39)
    = Sage.net (agg (m ((c : Thread nD τ).loc main_arg1))) (m ((c : Thread nD τ).loc main_arg0)) (cnt (m ((c : Thread nD τ).loc main_arg1)))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  have h5 : W4 m ρ c (Proc.devRef .tc main_v39) = (dat1 (V3 m ρ) c).arrAt 5 cfg1.N := W4_arr m ρ c 5
  rw [h5, Blocks.final1 (V3 m ρ) c, second_means m ρ c, second_feat m ρ c, second_Wl m ρ c, second_bias m ρ c, second_Wr m ρ c,
    hidden_value m ρ c]
  exact lay_means_output _ _ _ _ _

end Cert.KernelIdeal.HostValue

end
-- ==== Proof.RefNet.lean ====
/-
  The reference program's result is the two-layer specification.

  The reference computes, for each layer, the neighbour sums by gathering the source rows of the edges and adding each
  into its destination row, the in-degree column by adding one per edge into its destination row, the mean as the
  quotient of the neighbour sums by the larger of the in-degree and one, and then the two matrix products and the bias.
  Read one operation at a time and at one index, that is the specification's layer as it stands: the same quotient, the
  same two sums over the 128 input features, the same bias term, in the same order. No law of arithmetic is used.

  The gather and the scatter-adds are not read at an index. They enter only through two facts: the second layer's
  neighbour sums are formed by the same operations over the same edge list as the first layer's, applied to the first
  layer's result, and the second layer's in-degree column is the first layer's. Both hold because the operations that
  build the index columns and the zero and one arrays are repeated word for word in the second layer.
-/
import proofs.«123018_j14053132992904_1_alg».proof.Proof.Gen.ReferenceIdeal.Read
import proofs.«123018_j14053132992904_1_alg».proof.Proof.Spec

noncomputable section

namespace Cert.RefNet

open Cert.ReferenceIdeal Cert.ReferenceIdeal.Gen Idealize.ShloMosaic Idealize.ShloMosaic.TcCoe Idealize.SL.Sem Idealize.ShloMosaic.StableHlo
open Idealize.ShloMosaic.ValueIdx

/-- The neighbour sums, as the reference computes them: the source rows named by the edge list's first row are
    gathered, and each is added into the row named by the edge list's second row, starting from zero. -/
def agg (x1 : (⟨S2x500000, .i32⟩ : BufTy).Contents (Elt Ideal)) (feat : Sage.Feat) : Sage.Feat :=
  Host.scatterAdd (F := Ideal) (φ := .f32) scatter_S100000x128_S500000x1_S500000x128_1_0_0_1 (Read.val_main_v11 (F := Ideal)) (Read.val_main_v12 (F := Ideal) x1)
    (Host.gather (α := Ideal .f32) gather_S100000x128_S500000x1_S500000x128_1_0_n_n_0_1_1128 feat (Read.val_main_v9 (F := Ideal) x1))

/-- The in-degree column: one added per edge into the row named by the edge list's second row. -/
def cnt (x1 : (⟨S2x500000, .i32⟩ : BufTy).Contents (Elt Ideal)) : Sage.Col := Read.val_main_v17 (F := Ideal) x1

/-! ## The stages that are not read at an index -/

/-- The first layer's neighbour sums are `agg` of the input features. -/
theorem msg1_eq (x0 : (⟨S100000x128, .f32⟩ : BufTy).Contents (Elt Ideal)) (x1 : (⟨S2x500000, .i32⟩ : BufTy).Contents (Elt Ideal)) :
    Read.val_main_v13 (F := Ideal) x0 x1 = agg x1 x0 := rfl

/-- The second layer's in-degree column is the first layer's: the same scatter-add of ones into zeros along the same
    destination column. -/
theorem cnt2_eq (x1 : (⟨S2x500000, .i32⟩ : BufTy).Contents (Elt Ideal)) :
    Read.val_main_v42 (F := Ideal) x1 = cnt x1 := rfl

/-- The second layer's neighbour sums are `agg` of the first layer's result: its source and destination columns and
    its zero array are built by the same operations from the same edge list. -/
theorem msg2_eq (x0 : (⟨S100000x128, .f32⟩ : BufTy).Contents (Elt Ideal)) (x1 : (⟨S2x500000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    Read.val_main_v38 (F := Ideal) x0 x1 x2 x3 x4 = agg x1 (Read.val_main_v28 (F := Ideal) x0 x1 x2 x3 x4) := rfl

/-! ## The index maps of the printed operations, at an index given by its coordinates

  A matrix product at node `p`, output feature `q`, reads its left operand at `(p, k)` and its right operand at `(k, q)`;
  the divisor column is read at `(p, 0)` whatever the feature; the bias row is read at `q` whatever the node. -/

theorem lidx22 (p : Fin 100000) (q k : Fin 128) : Read.lidx_main_v22 (ix2 p q) k = ix2 p k :=
  funext fun a => Fin.ext (by match a with | ⟨0, _⟩ => rfl | ⟨1, _⟩ => rfl)
theorem ridx22 (p : Fin 100000) (q k : Fin 128) : Read.ridx_main_v22 (ix2 p q) k = ix2 k q :=
  funext fun a => Fin.ext (by match a with | ⟨0, _⟩ => rfl | ⟨1, _⟩ => rfl)
theorem lidx26 (p : Fin 100000) (q k : Fin 128) : Read.lidx_main_v26 (ix2 p q) k = ix2 p k :=
  funext fun a => Fin.ext (by match a with | ⟨0, _⟩ => rfl | ⟨1, _⟩ => rfl)
theorem ridx26 (p : Fin 100000) (q k : Fin 128) : Read.ridx_main_v26 (ix2 p q) k = ix2 k q :=
  funext fun a => Fin.ext (by match a with | ⟨0, _⟩ => rfl | ⟨1, _⟩ => rfl)
theorem lidx47 (p : Fin 100000) (q k : Fin 128) : Read.lidx_main_v47 (ix2 p q) k = ix2 p k :=
  funext fun a => Fin.ext (by match a with | ⟨0, _⟩ => rfl | ⟨1, _⟩ => rfl)
theorem ridx47 (p : Fin 100000) (q k : Fin 128) : Read.ridx_main_v47 (ix2 p q) k = ix2 k q :=
  funext fun a => Fin.ext (by match a with | ⟨0, _⟩ => rfl | ⟨1, _⟩ => rfl)
theorem lidx51 (p : Fin 100000) (q k : Fin 128) : Read.lidx_main_v51 (ix2 p q) k = ix2 p k :=
  funext fun a => Fin.ext (by match a with | ⟨0, _⟩ => rfl | ⟨1, _⟩ => rfl)
theorem ridx51 (p : Fin 100000) (q k : Fin 128) : Read.ridx_main_v51 (ix2 p q) k = ix2 k q :=
  funext fun a => Fin.ext (by match a with | ⟨0, _⟩ => rfl | ⟨1, _⟩ => rfl)
theorem idx20 (p : Fin 100000) (k : Fin 128) : Read.idx_main_v20 (ix2 p k) = ix2 p (0 : Fin 1) :=
  funext fun a => Fin.ext (by match a with | ⟨0, _⟩ => rfl | ⟨1, _⟩ => rfl)
theorem idx45 (p : Fin 100000) (k : Fin 128) : Read.idx_main_v45 (ix2 p k) = ix2 p (0 : Fin 1) :=
  funext fun a => Fin.ext (by match a with | ⟨0, _⟩ => rfl | ⟨1, _⟩ => rfl)
theorem idx23_24 (p : Fin 100000) (q : Fin 128) : Read.idx_main_v23 (Read.idx_main_v24 (ix2 p q)) = ix1 q :=
  funext fun a => Fin.ext (by match a with | ⟨0, _⟩ => rfl)
theorem idx48_49 (p : Fin 100000) (q : Fin 128) : Read.idx_main_v48 (Read.idx_main_v49 (ix2 p q)) = ix1 q :=
  funext fun a => Fin.ext (by match a with | ⟨0, _⟩ => rfl)

/-! ## Each layer is the specification's layer -/

/-- The first layer with its maximum against zero. At node `p`, feature `q` the reference's operations give the sum over
    `k` of (neighbour sum at `(p, k)` divided by the larger of the in-degree at `p` and one) times the left weight at
    `(k, q)`, plus the bias at `q`, plus the sum over `k` of the feature at `(p, k)` times the right weight at `(k, q)`,
    and then the larger of that and zero. -/
theorem hidden_eq (x0 : (⟨S100000x128, .f32⟩ : BufTy).Contents (Elt Ideal)) (x1 : (⟨S2x500000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    Read.val_main_v28 (F := Ideal) x0 x1 x2 x3 x4 = Sage.hidden (agg x1) x0 (cnt x1) x2 x3 x4 := by
  funext i
  obtain ⟨p, q, rfl⟩ : ∃ (p : Fin 100000) (q : Fin 128), i = ix2 p q := ⟨i 0, i 1, eq_ix2 i⟩
  simp only [Read.val_main_v28_apply, Read.val_main_v27_apply, Read.val_main_v25_apply, Read.val_main_v22_apply,
    Read.val_main_v21_apply, Read.val_main_v20_apply, Read.val_main_v19_apply, Read.val_main_v18_apply, Read.val_main_cst_3_apply,
    Read.val_main_v24_apply, Read.val_main_v23_apply, Read.val_main_v26_apply,
    Read.val_main_call0_v0_apply, Read.val_main_call0_cst_apply]
  simp only [lidx22, ridx22, lidx26, ridx26, idx20, idx23_24, msg1_eq,
    Ideal.hostDivf_def, Ideal.addf_def, Ideal.maximumf_def, Ideal.ofBits_def, Sage.one_word, Ideal.ofBits_zero_f32]
  unfold Sage.hidden Sage.lin Sage.mean Sage.denom cnt
  rfl

/-- The second layer, over the first layer's result `h`: the same reading, with `h` in place of the input features and
    no maximum at the end. -/
theorem output_eq (x0 : (⟨S100000x128, .f32⟩ : BufTy).Contents (Elt Ideal)) (x1 : (⟨S2x500000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal)) :
    Read.val_main_v52 (F := Ideal) x0 x1 x2 x3 x4 x5 x6 x7 =
      Sage.output (agg x1) (Read.val_main_v28 (F := Ideal) x0 x1 x2 x3 x4) (cnt x1) x5 x6 x7 := by
  funext i
  obtain ⟨p, q, rfl⟩ : ∃ (p : Fin 100000) (q : Fin 128), i = ix2 p q := ⟨i 0, i 1, eq_ix2 i⟩
  simp only [Read.val_main_v52_apply, Read.val_main_v50_apply, Read.val_main_v47_apply,
    Read.val_main_v46_apply, Read.val_main_v45_apply, Read.val_main_v44_apply, Read.val_main_v43_apply, Read.val_main_cst_9_apply,
    Read.val_main_v49_apply, Read.val_main_v48_apply, Read.val_main_v51_apply]
  simp only [lidx47, ridx47, lidx51, ridx51, idx45, idx48_49, msg2_eq, cnt2_eq,
    Ideal.hostDivf_def, Ideal.addf_def, Ideal.ofBits_def, Ideal.maximumf_def, Sage.one_word]
  unfold Sage.output Sage.lin Sage.mean Sage.denom
  rfl

/-! ## The whole program -/

/-- The reference program's result is the specification at the reference's own neighbour sums and in-degree column. -/
theorem ref_eq (x0 : (⟨S100000x128, .f32⟩ : BufTy).Contents (Elt Ideal)) (x1 : (⟨S2x500000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal)) :
    Read.val_main_v52 (F := Ideal) x0 x1 x2 x3 x4 x5 x6 x7 = Sage.net (agg x1) x0 (cnt x1) x2 x3 x4 x5 x6 x7 := by
  rw [output_eq, hidden_eq]
  rfl

end Cert.RefNet

end
-- ==== Proof.lean ====
/-
  The certificate of a two-layer mean-aggregating graph convolution: a Pallas kernel program against its plain
  reference, equal at the exact extended reals.

  Both programs gather the source rows of the edges, scatter-add them over the destinations, divide by the in-degree
  (or by one where no edge ends), and apply `mean · W_l + b + x · W_r`, the first layer followed by a maximum with zero.
  The kernel program does the linear part in a kernel over twenty blocks of 5000 rows, in bf16 operands (the identity
  at the extended reals), and multiplies by the reciprocal of the divisor where the reference divides; the reference
  uses whole matrix products. Both are the one function `Sage.net` of the argument arrays (Proof/Spec.lean): the
  kernel side in Proof/KernelValue.lean, the reference side in Proof/RefNet.lean. The gather and the scatter-add are
  never opened: the two programs apply the same operations to the same edge list. The precondition (finite inputs) is
  not used: the one law between the two sides, `x * (1 / d) = x / d` for `d = max c 1`, holds at every extended real.

  The three frames are the generated ones (the reference's is its generated run with the result dropped); the
  idealization rewrote nothing, so its conjunct is trivial.
-/
import proofs.«123018_j14053132992904_1_alg».proof.Defs
import proofs.«123018_j14053132992904_1_alg».proof.Proof.Gen.Kernel
import proofs.«123018_j14053132992904_1_alg».proof.Proof.Gen.Kernel.Skeleton
import proofs.«123018_j14053132992904_1_alg».proof.Proof.Gen.Kernel.Launch
import proofs.«123018_j14053132992904_1_alg».proof.Proof.Gen.Kernel.Points
import proofs.«123018_j14053132992904_1_alg».proof.Proof.Gen.Kernel.Frame
import proofs.«123018_j14053132992904_1_alg».proof.Proof.Gen.KernelIdeal
import proofs.«123018_j14053132992904_1_alg».proof.Proof.Gen.KernelIdeal.Skeleton
import proofs.«123018_j14053132992904_1_alg».proof.Proof.Gen.KernelIdeal.Launch
import proofs.«123018_j14053132992904_1_alg».proof.Proof.Gen.KernelIdeal.Points
import proofs.«123018_j14053132992904_1_alg».proof.Proof.Gen.KernelIdeal.Frame
import proofs.«123018_j14053132992904_1_alg».proof.Proof.Gen.ReferenceIdeal
import proofs.«123018_j14053132992904_1_alg».proof.Proof.Gen.Pre_finite_inputs
import proofs.«123018_j14053132992904_1_alg».proof.Proof.Gen.ReferenceIdeal.Run
import proofs.«123018_j14053132992904_1_alg».proof.Proof.Gen.ReferenceIdeal.Read
import proofs.«123018_j14053132992904_1_alg».proof.Proof.KernelRun
import proofs.«123018_j14053132992904_1_alg».proof.Proof.KernelValue
import proofs.«123018_j14053132992904_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The two programs form the neighbour sums by the same operations on the same edge list. -/
theorem agg_eq (E : Cert.KernelIdeal.HostValue.Edges) : Cert.RefNet.agg E = Cert.KernelIdeal.HostValue.agg E := rfl

/-- The two programs count the in-degree by the same operations on the same edge list. -/
theorem cnt_eq (E : Cert.KernelIdeal.HostValue.Edges) : Cert.RefNet.cnt E = Cert.KernelIdeal.HostValue.cnt E := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `Sage.net` of the arguments. -/
theorem algebraic : Cert.algebraic_KernelIdeal_ReferenceIdeal := by
  intro m ρ m' ρ' _ hagree
  refine ⟨fun c => Sage.net (Cert.KernelIdeal.HostValue.agg (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (Cert.KernelIdeal.HostValue.cnt (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostValue.result_value m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v52_eq, Cert.RefNet.ref_eq, agg_eq, cnt_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
